-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x2048 .f32) (main_arg1 : FVec F S2048x1024 .f32) (main_arg2 : FVec F S1024 .f32) (main_arg3 : FVec F S1024x64 .f32) (main_arg4 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S1x64 : Shape := ⟨2, ![1, 64]⟩
abbrev S16384x64 : Shape := ⟨2, ![16384, 64]⟩
abbrev S2048x2048 : Shape := ⟨2, ![2048, 2048]⟩
abbrev S2048x64 : Shape := ⟨2, ![2048, 64]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S1x1024, .f32⟩
  | .hbm, ⟨6, _⟩ => ⟨S1x64, .f32⟩
  | .hbm, ⟨7, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S2048x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  shapeCasts_S64_S1x64 : S64.ShapeCasts S1x64
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  dot_S2048x2048_S2048x1024_S2048x1024_1_0_0_1_n_n_wf : DotDims.WF S2048x2048 S2048x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S16384x1024 : Shape := ⟨2, ![16384, 1024]⟩
abbrev S1x1024 : Shape := ⟨2, ![1, 1024]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x1024_S16384x1024_1_0_0_1_n_n_wf : DotDims.WF S16384x2048 S2048x1024 S16384x1024 [1] [0] [0] [1] [] []
  dot_S16384x1024_S1024x64_S16384x64_1_0_0_1_n_n_wf : DotDims.WF S16384x1024 S1024x64 S16384x64 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.Spec.lean ====
/-
  The router's gating weights as one function of the argument arrays.

  For a token (a row `xr` of 2048 activations):
    hidden unit k  =  max (Σ_q xr q · W1 (q, k) + b1 k, 0)                    (a dense layer and a rectifier),
    logit j        =  Σ_k hidden k · W2 (k, j) + b2 j                          (a second dense layer),
    weight j       =  exp (logit j) · (1 / Σ_j' exp (logit j'))                (the softmax over the 64 experts).
  The array of weights has, at (i, j), weight j of token i.  Sums and products of real numbers are real, so a token's
  logits are real numbers as soon as the arguments' entries are.
-/
import Idealize.ShloMosaic.PureOps.Ideal
import Idealize.ShloMosaic.Lib.ValueIdx
import proofs.«176451_g56796647523006_cont_9to1c4b_719_26_alg».proof.Proof.LibRealValued

noncomputable section

open scoped BigOperators

namespace Cert.Router

open Idealize.ShloMosaic Idealize.ShloMosaic.ValueIdx Cert.RealValued

/-- Hidden unit `k` of one token: the first dense layer followed by the rectifier. -/
def hiddenRow (xr : Fin 2048 → EReal) (W1 : (⟨2, ![2048, 1024]⟩ : Shape).Idx → EReal) (b1 : Fin 1024 → EReal)
    (k : Fin 1024) : EReal :=
  max ((∑ q : Fin 2048, xr q * W1 (ix2 q k)) + b1 k) 0

/-- Logit `j` of one token: the second dense layer on the hidden units. -/
def logitRow (xr : Fin 2048 → EReal) (W1 : (⟨2, ![2048, 1024]⟩ : Shape).Idx → EReal) (b1 : Fin 1024 → EReal)
    (W2 : (⟨2, ![1024, 64]⟩ : Shape).Idx → EReal) (b2 : Fin 64 → EReal) (j : Fin 64) : EReal :=
  (∑ k : Fin 1024, hiddenRow xr W1 b1 k * W2 (ix2 k j)) + b2 j

/-- The softmax of a row of 64 logits, written with the reciprocal of the sum of exponentials. -/
def softRow (l : Fin 64 → EReal) (j : Fin 64) : EReal :=
  Ideal.exp (l j) * Ideal.div 1 (∑ k : Fin 64, Ideal.exp (l k))

/-- The gating weights of all 16384 tokens. -/
def weights (x : (⟨2, ![16384, 2048]⟩ : Shape).Idx → EReal) (W1 : (⟨2, ![2048, 1024]⟩ : Shape).Idx → EReal)
    (b1 : (⟨1, ![1024]⟩ : Shape).Idx → EReal) (W2 : (⟨2, ![1024, 64]⟩ : Shape).Idx → EReal)
    (b2 : (⟨1, ![64]⟩ : Shape).Idx → EReal) : (⟨2, ![16384, 64]⟩ : Shape).Idx → EReal :=
  fun i => softRow (logitRow (fun q => x (ix2 (i 0) q)) W1 (fun k => b1 (ix1 k)) W2 (fun j => b2 (ix1 j))) (i 1)

theorem weights_apply (x : (⟨2, ![16384, 2048]⟩ : Shape).Idx → EReal) (W1 : (⟨2, ![2048, 1024]⟩ : Shape).Idx → EReal)
    (b1 : (⟨1, ![1024]⟩ : Shape).Idx → EReal) (W2 : (⟨2, ![1024, 64]⟩ : Shape).Idx → EReal)
    (b2 : (⟨1, ![64]⟩ : Shape).Idx → EReal) (p : Fin 16384) (q : Fin 64) :
    weights x W1 b1 W2 b2 (ix2 p q)
      = softRow (logitRow (fun r => x (ix2 p r)) W1 (fun k => b1 (ix1 k)) W2 (fun j => b2 (ix1 j))) q := rfl

/-- A hidden unit of real data is a real number. -/
theorem hiddenRow_isReal (xr : Fin 2048 → EReal) (W1 : (⟨2, ![2048, 1024]⟩ : Shape).Idx → EReal) (b1 : Fin 1024 → EReal)
    (hx : ∀ q, IsReal (xr q)) (hW1 : ∀ i, IsReal (W1 i)) (hb1 : ∀ k, IsReal (b1 k)) (k : Fin 1024) :
    IsReal (hiddenRow xr W1 b1 k) :=
  ((IsReal.sum _ _ fun q _ => (hx q).mul (hW1 _)).add (hb1 k)).max IsReal.zero

/-- A logit of real data is a real number. -/
theorem logitRow_isReal (xr : Fin 2048 → EReal) (W1 : (⟨2, ![2048, 1024]⟩ : Shape).Idx → EReal) (b1 : Fin 1024 → EReal)
    (W2 : (⟨2, ![1024, 64]⟩ : Shape).Idx → EReal) (b2 : Fin 64 → EReal)
    (hx : ∀ q, IsReal (xr q)) (hW1 : ∀ i, IsReal (W1 i)) (hb1 : ∀ k, IsReal (b1 k)) (hW2 : ∀ i, IsReal (W2 i))
    (hb2 : ∀ j, IsReal (b2 j)) (j : Fin 64) : IsReal (logitRow xr W1 b1 W2 b2 j) :=
  (IsReal.sum _ _ fun k _ => (hiddenRow_isReal xr W1 b1 hx hW1 hb1 k).mul (hW2 _)).add (hb2 j)

end Cert.Router

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«176451_g56796647523006_cont_9to1c4b_719_26_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.KernelPayload.lean ====
/-
  What the tile body stores, read at an entry.

  The body sees a block of 2048 tokens, the two weight matrices whole, and the two biases as one-row matrices.  Every
  step of it works token by token: row p of the first product is Σ_q x (p, q) · W1 (q, ·), the bias row is repeated down
  the rows, the rectifier and the exponential act entry by entry, the sum of exponentials runs along row p, and its
  reciprocal — kept as a one-column matrix — is repeated along the row.  The casts to a narrower float format are the
  identity on exact values.  So entry (p, q) of the stored value is the softmax weight q of the block's token p.
-/
import proofs.«176451_g56796647523006_cont_9to1c4b_719_26_alg».proof.Proof.Gen.KernelIdeal.Skeleton
import proofs.«176451_g56796647523006_cont_9to1c4b_719_26_alg».proof.Proof.Spec
import proofs.«176451_g56796647523006_cont_9to1c4b_719_26_alg».proof.Proof.LibMatmul
import proofs.«176451_g56796647523006_cont_9to1c4b_719_26_alg».proof.Proof.LibRank2
import proofs.«176451_g56796647523006_cont_9to1c4b_719_26_alg».proof.Proof.LibKeepdims
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Router

variable (x0 : Vec Ideal S2048x2048 .f32) (x1 : Vec Ideal S2048x1024 .f32) (x2 : Vec Ideal S1x1024 .f32)
  (x3 : Vec Ideal S1024x64 .f32) (x4 : Vec Ideal S1x64 .f32)

/-- The block's rectified hidden units. -/
def hid : FVec Ideal S2048x1024 .f32 :=
  maximumf
    (addf (matmul dot_S2048x2048_S2048x1024_S2048x1024_1_0_0_1_n_n none (truncf .bf16 x0 bitsLt_bf16_f32)
        (truncf .bf16 x1 bitsLt_bf16_f32) (constant S2048x1024 .f32 0x00000000#32))
      (broadcastTo S2048x1024 (shapeCast S1x1024 x2 shapeCasts_S1x1024_S1x1024) broadcasts_S1x1024_S2048x1024))
    (broadcast S2048x1024 (Scalar.ofBits .f32 0x00000000#32))

/-- The block's logits. -/
def logits : FVec Ideal S2048x64 .f32 :=
  addf (matmul dot_S2048x1024_S1024x64_S2048x64_1_0_0_1_n_n none (truncf .bf16 (hid x0 x1 x2) bitsLt_bf16_f32)
      (truncf .bf16 x3 bitsLt_bf16_f32) (constant S2048x64 .f32 0x00000000#32))
    (broadcastTo S2048x64 (shapeCast S1x64 x4 shapeCasts_S1x64_S1x64) broadcasts_S1x64_S2048x64)

/-- Hidden unit k of the block's token p. -/
theorem hid_apply (p : Fin 2048) (k : Fin 1024) :
    hid x0 x1 x2 (ix2 p k) = hiddenRow (fun r => x0 (ix2 p r)) x1 (fun k => x2 (ix2 (0 : Fin 1) k)) k := by
  unfold hid hiddenRow
  show max (matmul _ none _ _ _ (ix2 p k) + broadcastTo _ _ _ (ix2 p k)) (Ideal.ofBits .f32 0x00000000#32) = _
  rw [Cert.Rank2.rowBias_vec_apply x2 shapeCasts_S1x1024_S1x1024 broadcasts_S1x1024_S2048x1024 p k, Ideal.ofBits_zero_f32]
  refine congrArg (fun s => max (s + _) 0) ?_
  exact Cert.MatmulAt.matmul_zero_plain_apply dot_S2048x2048_S2048x1024_S2048x1024_1_0_0_1_n_n_wf none
    (truncf .bf16 x0 bitsLt_bf16_f32) (truncf .bf16 x1 bitsLt_bf16_f32) p k

/-- Logit j of the block's token p. -/
theorem logits_apply (p : Fin 2048) (j : Fin 64) :
    logits x0 x1 x2 x3 x4 (ix2 p j)
      = logitRow (fun r => x0 (ix2 p r)) x1 (fun k => x2 (ix2 (0 : Fin 1) k)) x3 (fun j => x4 (ix2 (0 : Fin 1) j)) j := by
  unfold logits logitRow
  show matmul _ none _ _ _ (ix2 p j) + broadcastTo _ _ _ (ix2 p j) = _
  rw [Cert.Rank2.rowBias_vec_apply x4 shapeCasts_S1x64_S1x64 broadcasts_S1x64_S2048x64 p j]
  refine congrArg (fun s => s + _) ?_
  refine (Cert.MatmulAt.matmul_zero_plain_apply dot_S2048x1024_S1024x64_S2048x64_1_0_0_1_n_n_wf none
    (truncf .bf16 (hid x0 x1 x2) bitsLt_bf16_f32) (truncf .bf16 x3 bitsLt_bf16_f32) p j).trans ?_
  exact Finset.sum_congr rfl fun k _ => congrArg (fun s => s * x3 (ix2 k j)) (hid_apply x0 x1 x2 p k)

/-- The sum along row p of a 2048 × 64 block, as the lane reduction computes it. -/
theorem rowSum_apply (e : FVec Ideal S2048x64 .f32) (hφ : FKind.Formats .f32)
    (hacc : (0x00000000#32 : BitVec FTy.f32.bits) = FKind.add.neutral .f32 hφ) (p : Fin 2048) :
    multiReduction .add [1] S2048 e 0x00000000#32 reduces_S2048x64_S2048 hφ hacc (ix1 p) = ∑ j : Fin 64, e (ix2 p j) :=
  (Ideal.multiReduction_add_single e _ reduces_S2048x64_S2048 hφ hacc (ix1 p)).trans
    (Finset.sum_congr rfl fun j _ => congrArg e (funext fun a => Fin.ext (by
      match a with
      | ⟨0, _⟩ => rfl
      | ⟨1, _⟩ => rfl)))

/-- The pattern of one denotes the real number one. -/
theorem ofBits_one : Ideal.ofBits .f32 0x3F800000#32 = 1 :=
  IdealRules.sign_bit.ideal_onePat .f32

/-- THE STORED VALUE at (p, q): the softmax weight q of the block's token p. -/
theorem pay_apply (p : Fin 2048) (q : Fin 64) :
    k0_pay1 (F := Ideal) x0 x1 x2 x3 x4 (ix2 p q)
      = softRow (logitRow (fun r => x0 (ix2 p r)) x1 (fun k => x2 (ix2 (0 : Fin 1) k)) x3
          (fun j => x4 (ix2 (0 : Fin 1) j))) q := by
  show (exp (logits x0 x1 x2 x3 x4)) (ix2 p q)
      * broadcastTo S2048x64 (divf (broadcast S2048x1 (Scalar.ofBits .f32 0x3F800000#32))
          (shapeCast S2048x1 (multiReduction .add [1] S2048 (exp (logits x0 x1 x2 x3 x4)) 0x00000000#32
            reduces_S2048x64_S2048 (.inl rfl) rfl) shapeCasts_S2048_S2048x1)) broadcasts_S2048x1_S2048x64 (ix2 p q) = _
  rw [Cert.Keepdims.broadcastTo_a1_ab_apply _ broadcasts_S2048x1_S2048x64 p q]
  show _ * Ideal.div (Ideal.ofBits .f32 0x3F800000#32) (shapeCast S2048x1 _ shapeCasts_S2048_S2048x1 (ix2 p (0 : Fin 1))) = _
  rw [Cert.Keepdims.shapeCast_a_a1_apply _ shapeCasts_S2048_S2048x1 p (0 : Fin 1), ofBits_one]
  unfold softRow
  refine congrArg₂ (fun a s => a * Ideal.div 1 s) ?_ ?_
  · show Ideal.exp (logits x0 x1 x2 x3 x4 (ix2 p q)) = _
    rw [logits_apply]
  · refine (rowSum_apply (exp (logits x0 x1 x2 x3 x4)) _ _ p).trans ?_
    refine Finset.sum_congr rfl fun j _ => ?_
    show Ideal.exp (logits x0 x1 x2 x3 x4 (ix2 p j)) = _
    rw [logits_apply]

end Cert.KernelIdeal.Payload

end
-- ==== Proof.KernelValue.lean ====
/-
  From the blocks the grid points write to the whole result array.

  Grid point t stages rows 2048·t … 2048·t + 2047 of the tokens, both weight matrices whole, and the two biases — which
  a reshape before the launch has laid out as one-row matrices — whole; it writes back rows 2048·t … of the result.
  Every entry it stores is the softmax weight of one token of its block, which depends on that token's row only, so
  what point t writes back is block t of the array of gating weights.  The eight blocks tile the array (row r lies in
  block r / 2048), hence after the run the result array is the array of gating weights of the arguments.
-/
import proofs.«176451_g56796647523006_cont_9to1c4b_719_26_alg».proof.Proof.Gen.KernelIdeal.Value
import proofs.«176451_g56796647523006_cont_9to1c4b_719_26_alg».proof.Proof.KernelPayload
import Idealize.ShloMosaic.Lib.ValueLayout

set_option maxRecDepth 16384

noncomputable section

namespace Cert.KernelIdeal.RouterValue

open Cert.KernelIdeal Cert.KernelIdeal.Gen Idealize.ShloMosaic Idealize.ShloMosaic.TcCoe Idealize.ShloMosaic.ValueIdx
open Idealize.SL.Sem Cert.Router
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The gating weights of the arguments as launched. -/
def result (c : Dev nD) : S16384x64.Idx → EReal :=
  weights (m ((c : Thread nD τ).loc main_arg0)) (m ((c : Thread nD τ).loc main_arg1)) (m ((c : Thread nD τ).loc main_arg2))
    (m ((c : Thread nD τ).loc main_arg3)) (m ((c : Thread nD τ).loc main_arg4))

/-! ## One point's stored entry, over any blocks that hold the right rows -/

/-- If a block of tokens holds rows 2048·T … of the token array, the weights are whole and the biases are one-row copies
    of the bias vectors, then the body's stored entry (p, q) is the gating weight (2048·T + p, q). -/
theorem point_eq (x0 : Vec Ideal S2048x2048 .f32) (x1 : Vec Ideal S2048x1024 .f32) (x2 : Vec Ideal S1x1024 .f32)
    (x3 : Vec Ideal S1024x64 .f32) (x4 : Vec Ideal S1x64 .f32)
    (A0 : S16384x2048.Idx → EReal) (A1 : S2048x1024.Idx → EReal) (A2 : S1024.Idx → EReal) (A3 : S1024x64.Idx → EReal)
    (A4 : S64.Idx → EReal) (T : ℕ) (j : S2048x64.Idx) (i : S16384x64.Idx)
    (hi0 : (i 0).val = T * 2048 + (j 0).val) (hi1 : (i 1).val = (j 1).val)
    (h0 : ∀ (p : Fin 2048) (r : Fin 2048) (P : Fin 16384), P.val = T * 2048 + p.val → x0 (ix2 p r) = A0 (ix2 P r))
    (h1 : x1 = A1) (h2 : ∀ k : Fin 1024, x2 (ix2 (0 : Fin 1) k) = A2 (ix1 k)) (h3 : x3 = A3)
    (h4 : ∀ k : Fin 64, x4 (ix2 (0 : Fin 1) k) = A4 (ix1 k)) :
    k0_pay1 (F := Ideal) x0 x1 x2 x3 x4 j = weights A0 A1 A2 A3 A4 i := by
  obtain ⟨p, q, rfl⟩ : ∃ (p : Fin 2048) (q : Fin 64), j = ix2 p q := ⟨j 0, j 1, eq_ix2 j⟩
  obtain ⟨P, Q, rfl⟩ : ∃ (P : Fin 16384) (Q : Fin 64), i = ix2 P Q := ⟨i 0, i 1, eq_ix2 i⟩
  obtain rfl : Q = q := Fin.ext hi1
  rw [Cert.KernelIdeal.Payload.pay_apply, weights_apply]
  subst h1 h3
  have e0 : (fun r => x0 (ix2 p r)) = fun r => A0 (ix2 P r) := funext fun r => h0 p r P hi0
  have e2 : (fun k => x2 (ix2 (0 : Fin 1) k)) = fun k => A2 (ix1 k) := funext h2
  have e4 : (fun k => x4 (ix2 (0 : Fin 1) k)) = fun k => A4 (ix1 k) := funext h4
  rw [e0, e2, e4]

/-! ## The printed index maps, decided over the eight points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The bias arrays the region finds: the reshapes before the launch -/

theorem V_bias1 (c : Dev nD) :
    (V m c main_v0 : S1x1024.Idx → EReal)
      = shapeCast S1x1024 (m ((c : Thread nD τ).loc main_arg2)) shapeCasts_S1024_S1x1024 := by
  dsimp only [Gen.V, Gen.hostOps0]; after_results; rfl

theorem V_bias2 (c : Dev nD) :
    (V m c main_v1 : S1x64.Idx → EReal)
      = shapeCast S1x64 (m ((c : Thread nD τ).loc main_arg4)) shapeCasts_S64_S1x64 := by
  dsimp only [Gen.V, Gen.hostOps0]; after_results; rfl

/-! ## The blocks at a point -/

/-- The token block at point t holds rows 2048·t … of the token array. -/
theorem blk_tokens (c : Dev nD) (t : Fin cfg0.N) (p : Fin 2048) (r : Fin 2048) (P : Fin 16384)
    (hP : P.val = t.val * 2048 + p.val) :
    iblk m c 0 t (ix2 p r) = m ((c : Thread nD τ).loc main_arg0) (ix2 P r) := by
  obtain ⟨e00, e01, -⟩ := idx_facts t
  rw [← V_main_arg0 m c]
  show V m c main_arg0 (((cfg0.win 0).blk t).view.emb (ix2 p r)) = V m c main_arg0 (ix2 P r)
  refine congrArg (V m c main_arg0) (funext fun a => Fin.ext ?_)
  match a with
  | ⟨0, _⟩ => show win0_0.index t (0 : Fin 2) * 2048 + 1 * p.val = P.val; omega
  | ⟨1, _⟩ => show win0_0.index t (1 : Fin 2) * 2048 + 1 * r.val = r.val; omega

/-- The first weight matrix is staged whole. -/
theorem blk_W1 (c : Dev nD) (t : Fin cfg0.N) : iblk m c 1 t = m ((c : Thread nD τ).loc main_arg1) := by
  obtain ⟨-, -, e10, e11, -⟩ := idx_facts t
  rw [← V_main_arg1 m c]
  funext y
  show V m c main_arg1 (((cfg0.win 1).blk t).view.emb y) = V m c main_arg1 y
  refine congrArg (V m c main_arg1) (funext fun a => Fin.ext ?_)
  match a with
  | ⟨0, _⟩ => show win0_1.index t (0 : Fin 2) * 2048 + 1 * (y 0).val = (y 0).val; omega
  | ⟨1, _⟩ => show win0_1.index t (1 : Fin 2) * 1024 + 1 * (y 1).val = (y 1).val; omega

/-- The second weight matrix is staged whole. -/
theorem blk_W2 (c : Dev nD) (t : Fin cfg0.N) : iblk m c 3 t = m ((c : Thread nD τ).loc main_arg3) := by
  obtain ⟨-, -, -, -, -, -, e30, e31, -⟩ := idx_facts t
  rw [← V_main_arg3 m c]
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; omega
  | ⟨1, _⟩ => show win0_3.index t (1 : Fin 2) * 64 + 1 * (y 1).val = (y 1).val; omega

/-- The first bias, staged as a one-row matrix, holds the bias vector along its row. -/
theorem blk_b1 (c : Dev nD) (t : Fin cfg0.N) (k : Fin 1024) :
    iblk m c 2 t (ix2 (0 : Fin 1) k) = m ((c : Thread nD τ).loc main_arg2) (ix1 k) := by
  obtain ⟨-, -, -, -, e20, e21, -⟩ := idx_facts t
  have hemb : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 1024 + 1 * k.val = k.val; omega)
  show (V m c main_v0 : S1x1024.Idx → EReal) (((cfg0.win 2).blk t).view.emb (ix2 (0 : Fin 1) k)) = _
  rw [hemb, V_bias1]
  exact shapeCast_a_1a_apply _ shapeCasts_S1024_S1x1024 0 k

/-- The second bias likewise. -/
theorem blk_b2 (c : Dev nD) (t : Fin cfg0.N) (k : Fin 64) :
    iblk m c 4 t (ix2 (0 : Fin 1) k) = m ((c : Thread nD τ).loc main_arg4) (ix1 k) := by
  obtain ⟨-, -, -, -, -, -, -, -, e40, e41, -⟩ := idx_facts t
  have hemb : ((cfg0.win 4).blk t).view.emb (ix2 (0 : Fin 1) k) = ix2 (0 : Fin 1) k := funext fun a => Fin.ext (by
    match a with
    | ⟨0, _⟩ => show win0_4.index t (0 : Fin 2) * 1 + 1 * 0 = 0; omega
    | ⟨1, _⟩ => show win0_4.index t (1 : Fin 2) * 64 + 1 * k.val = k.val; omega)
  show (V m c main_v1 : S1x64.Idx → EReal) (((cfg0.win 4).blk t).view.emb (ix2 (0 : Fin 1) k)) = _
  rw [hemb, V_bias2]
  exact shapeCast_a_1a_apply _ shapeCasts_S64_S1x64 0 k

/-! ## What a point writes back, the cover, the array -/

/-- WHAT POINT t WRITES BACK is block t of the gating weights. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S2048x2048) origin, View.ld_unit_zero (S := S2048x1024) origin,
    View.ld_unit_zero (S := S1x1024) origin, View.ld_unit_zero (S := S1024x64) origin, View.ld_unit_zero (S := S1x64) origin]
  obtain ⟨-, -, -, -, -, -, -, -, -, -, e50, e51⟩ := idx_facts t
  funext j
  show k0_pay1 (F := Ideal) (iblk m c 0 t) (iblk m c 1 t) (iblk m c 2 t) (iblk m c 3 t) (iblk m c 4 t) j
    = result m c (((cfg0.win 5).blk t).view.emb j)
  refine point_eq _ _ _ _ _ _ _ _ _ _ t.val j _ ?_ ?_ (fun p r P hP => blk_tokens m c t p r P hP) (blk_W1 m c t)
    (blk_b1 m c t) (blk_W2 m c t) (blk_b2 m c t)
  · show win0_5.index t (0 : Fin 2) * 2048 + 1 * (j 0).val = t.val * 2048 + (j 0).val; omega
  · show win0_5.index t (1 : Fin 2) * 64 + 1 * (j 1).val = (j 1).val; omega

/-- An index lies in point t's block iff each coordinate lies in the block's range. -/
theorem mem_blk (t : Fin cfg0.N) (i : S16384x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v2).slice (win0_5.rect t)).set ↔ _
  rw [View.set_slice_whole, Rect.mem_set_unit]
  exact Iff.rfl

/-- Row r of the result lies in the block of point r / 2048. -/
theorem cover (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 8 := N_0
  let t : Fin cfg0.N := ⟨(i 0).val / 2048, by rw [hN]; omega⟩
  obtain ⟨-, -, -, -, -, -, -, -, -, -, e50, e51⟩ := idx_facts t
  have ht : t.val = (i 0).val / 2048 := rfl
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 64 ≤ (i 1).val ∧ (i 1).val < win0_5.index t (1 : Fin 2) * 64 + 64
    omega

/-- THE RESULT ARRAY after the run is the array of gating weights. -/
theorem final (c : Dev nD) : (dats m 0 c).arrAt 5 cfg0.N = result m c :=
  (dats m 0 c).arrAt_eq_of_cover 5 (result m c) (fun t _ => flushed_eq m c t) cover

/-- The kernel's run: the result array ends at the gating weights of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.RouterValue

end
-- ==== Proof.LibSoftmaxShift.lean ====
/-
  The softmax of a row does not change when every entry is shifted by one real number.

  For a nonempty row `l` of REAL entries and a real `M`,
      exp (l q - M) / (0 + Σ_k exp (l k - M))  =  exp (l q) · (1 / Σ_k exp (l k)),
  because exp (l k - M) = exp (l k) / exp M with exp M a positive real, which cancels between the numerator and the
  sum; and a quotient by a positive real is the product with its reciprocal.  On the extended reals the law fails at
  infinite entries (a row holding +∞ gives ⊤ · 0 on the right and a quotient of zeros on the left), so the
  hypothesis that the entries are real is used.
-/
import proofs.«176451_g56796647523006_cont_9to1c4b_719_26_alg».proof.Proof.LibRealValued

open scoped BigOperators

namespace Cert.SoftmaxShift

open Cert.RealValued Idealize.ShloMosaic

/-- A finite sum of reals, read as an extended real, is the sum of the terms read as extended reals. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The shifted softmax of a nonempty real row is the unshifted one, written with a reciprocal. -/
theorem shifted_eq {n : ℕ} (hn : 0 < n) (l : Fin n → EReal) (hl : ∀ k, IsReal (l k)) (M : EReal) (hM : IsReal M) (q : Fin n) :
    Ideal.div (Ideal.exp (l q - M)) (0 + ∑ k : Fin n, Ideal.exp (l k - M))
      = Ideal.exp (l q) * Ideal.div 1 (∑ k : Fin n, Ideal.exp (l k)) := by
  obtain ⟨m, rfl⟩ := hM
  choose r hr using hl
  obtain rfl : l = fun k => (r k : EReal) := funext hr
  have hS : (0 : ℝ) < ∑ k : Fin n, Real.exp (r k) :=
    Finset.sum_pos (fun k _ => Real.exp_pos _) ⟨⟨0, hn⟩, Finset.mem_univ _⟩
  have hS' : (0 : ℝ) < ∑ k : Fin n, Real.exp (r k - m) :=
    Finset.sum_pos (fun k _ => Real.exp_pos _) ⟨⟨0, hn⟩, Finset.mem_univ _⟩
  have hshift : ∑ k : Fin n, Real.exp (r k - m) = (∑ k : Fin n, Real.exp (r k)) / Real.exp m := by
    rw [Finset.sum_div]; exact Finset.sum_congr rfl fun k _ => Real.exp_sub _ _
  simp only [← EReal.coe_sub, Ideal.exp_coe, ← coe_sum, zero_add]
  rw [Ideal.div_coe hS'.ne', Ideal.div_coe hS.ne', ← EReal.coe_one, ← EReal.coe_mul, ← EReal.coe_mul, ← EReal.coe_mul]
  refine congrArg _ ?_
  rw [hshift, Real.exp_sub]
  have hm : Real.exp m ≠ 0 := (Real.exp_pos m).ne'
  field_simp

end Cert.SoftmaxShift
-- ==== Proof.ReferenceValue.lean ====
/-
  The reference's result is the array of gating weights, when the arguments hold real numbers.

  Read one operation at a time, the reference computes for token p the same hidden units and logits as the
  specification (its matrix products are the plain sums, its biases are repeated down the rows), then the row's maximum
  M (started from -∞), the shifted exponentials exp (logit - M), their sum along the row (started from 0), and the
  quotient.  For real arguments the logits are real, so M — the maximum of a nonempty row of reals — is real, and the
  shift cancels: the quotient is exp (logit) · (1 / Σ exp (logit)).
-/
import proofs.«176451_g56796647523006_cont_9to1c4b_719_26_alg».proof.Proof.Gen.ReferenceIdeal.Read
import proofs.«176451_g56796647523006_cont_9to1c4b_719_26_alg».proof.Proof.Spec
import proofs.«176451_g56796647523006_cont_9to1c4b_719_26_alg».proof.Proof.LibSoftmaxShift
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Router Cert.RealValued

variable (x0 : (⟨S16384x2048, .f32⟩ : BufTy).Contents (Elt Ideal)) (x1 : (⟨S2048x1024, .f32⟩ : BufTy).Contents (Elt Ideal))
  (x2 : (⟨S1024, .f32⟩ : BufTy).Contents (Elt Ideal)) (x3 : (⟨S1024x64, .f32⟩ : BufTy).Contents (Elt Ideal))
  (x4 : (⟨S64, .f32⟩ : BufTy).Contents (Elt Ideal))

/-! ## Where each operation reads its operands, at an entry (p, ·) -/

theorem lidx0 (p : Fin 16384) (k : Fin 1024) (r : Fin 2048) : lidx_main_v0 (ix2 p k) r = ix2 p r :=
  funext fun a => Fin.ext (by match a with | ⟨0, _⟩ => rfl | ⟨1, _⟩ => rfl)
theorem ridx0 (p : Fin 16384) (k : Fin 1024) (r : Fin 2048) : ridx_main_v0 (ix2 p k) r = ix2 r k :=
  funext fun a => Fin.ext (by match a with | ⟨0, _⟩ => rfl | ⟨1, _⟩ => rfl)
theorem idx12 (p : Fin 16384) (k : Fin 1024) : idx_main_v1 (idx_main_v2 (ix2 p k)) = ix1 k :=
  funext fun a => Fin.ext (by match a with | ⟨0, _⟩ => rfl)
theorem lidx5 (p : Fin 16384) (j : Fin 64) (k : Fin 1024) : lidx_main_v5 (ix2 p j) k = ix2 p k :=
  funext fun a => Fin.ext (by match a with | ⟨0, _⟩ => rfl | ⟨1, _⟩ => rfl)
theorem ridx5 (p : Fin 16384) (j : Fin 64) (k : Fin 1024) : ridx_main_v5 (ix2 p j) k = ix2 k j :=
  funext fun a => Fin.ext (by match a with | ⟨0, _⟩ => rfl | ⟨1, _⟩ => rfl)
theorem idx67 (p : Fin 16384) (j : Fin 64) : idx_main_v6 (idx_main_v7 (ix2 p j)) = ix1 j :=
  funext fun a => Fin.ext (by match a with | ⟨0, _⟩ => rfl)
theorem idx1213 (p : Fin 16384) (j : Fin 64) : idx_main_v12 (idx_main_v13 (ix2 p j)) = ix1 p :=
  funext fun a => Fin.ext (by match a with | ⟨0, _⟩ => rfl)
theorem idx1718 (p : Fin 16384) (j : Fin 64) : idx_main_v17 (idx_main_v18 (ix2 p j)) = ix1 p :=
  funext fun a => Fin.ext (by match a with | ⟨0, _⟩ => rfl)
theorem idx16 (p : Fin 16384) (k : Fin 64) : idx_main_v16 (ix1 p) k = ix2 p k :=
  funext fun a => Fin.ext (by match a with | ⟨0, _⟩ => rfl | ⟨1, _⟩ => rfl)

/-! ## The two dense layers -/

/-- Hidden unit k of token p. -/
theorem hidden_apply (p : Fin 16384) (k : Fin 1024) :
    val_main_v4 (F := Ideal) x0 x1 x2 (ix2 p k) = hiddenRow (fun r => x0 (ix2 p r)) x1 (fun k => x2 (ix1 k)) k := by
  rw [val_main_v4_apply, val_main_v3_apply, val_main_v0_apply, val_main_v2_apply, val_main_v1_apply,
    val_main_call0_v0_apply, val_main_call0_cst_apply, idx12]
  simp only [lidx0, ridx0]
  unfold hiddenRow
  simp only [Ideal.maximumf_def, Ideal.addf_def, Ideal.ofBits_def, Ideal.ofBits_zero_f32]

/-- Logit j of token p. -/
theorem logit_apply (p : Fin 16384) (j : Fin 64) :
    val_main_v8 (F := Ideal) x0 x1 x2 x3 x4 (ix2 p j)
      = logitRow (fun r => x0 (ix2 p r)) x1 (fun k => x2 (ix1 k)) x3 (fun j => x4 (ix1 j)) j := by
  rw [val_main_v8_apply, val_main_v5_apply, val_main_v7_apply, val_main_v6_apply, idx67]
  simp only [lidx5, ridx5, hidden_apply]
  unfold logitRow
  simp only [Ideal.addf_def]

/-! ## The shifted exponentials and their row sums -/

/-- The shifted exponential at (p, k): exp (logit k - M) with M the reference's maximum of row p. -/
theorem shiftedExp_apply (p : Fin 16384) (k : Fin 64) :
    val_main_v15 (F := Ideal) x0 x1 x2 x3 x4 (ix2 p k)
      = Ideal.exp (logitRow (fun r => x0 (ix2 p r)) x1 (fun k => x2 (ix1 k)) x3 (fun j => x4 (ix1 j)) k
          - val_main_v11 (F := Ideal) x0 x1 x2 x3 x4 (ix1 p)) := by
  rw [val_main_v15_apply, val_main_v14_apply, val_main_v13_apply, val_main_v12_apply, idx1213, logit_apply]
  rfl

/-- The divisor at (p, q): the sum along row p of the shifted exponentials, started from zero. -/
theorem rowSum_apply (p : Fin 16384) (q : Fin 64) :
    val_main_v18 (F := Ideal) x0 x1 x2 x3 x4 (ix2 p q)
      = 0 + ∑ k : Fin 64, Ideal.exp (logitRow (fun r => x0 (ix2 p r)) x1 (fun k => x2 (ix1 k)) x3 (fun j => x4 (ix1 j)) k
          - val_main_v11 (F := Ideal) x0 x1 x2 x3 x4 (ix1 p)) := by
  rw [val_main_v18_apply, val_main_v17_apply, idx1718, val_main_v16_apply, val_main_cst_1_apply]
  simp only [idx16, shiftedExp_apply, Ideal.ofBits_def, Ideal.ofBits_zero_f32]

/-- The pattern of minus infinity denotes the bottom element. -/
theorem ofBits_negInf : Ideal.ofBits .f32 0xFF800000#32 = ⊥ := by simp [Ideal.ofBits, Ideal.ieee]

section
variable (h0 : ∀ i, IsReal (x0 i)) (h1 : ∀ i, IsReal (x1 i)) (h2 : ∀ i, IsReal (x2 i)) (h3 : ∀ i, IsReal (x3 i))
  (h4 : ∀ i, IsReal (x4 i))
include h0 h1 h2 h3 h4

/-- Every logit is a real number. -/
theorem logit_isReal (i : S16384x64.Idx) : IsReal (val_main_v8 (F := Ideal) x0 x1 x2 x3 x4 i) := by
  obtain ⟨p, j, rfl⟩ : ∃ (p : Fin 16384) (j : Fin 64), i = ix2 p j := ⟨i 0, i 1, eq_ix2 i⟩
  rw [logit_apply]
  exact logitRow_isReal _ _ _ _ _ (fun _ => h0 _) h1 (fun _ => h2 _) h3 (fun _ => h4 _) j

/-- Each row's maximum is a real number: the maximum of 64 real logits. -/
theorem rowMax_isReal (i : S16384.Idx) : IsReal (val_main_v11 (F := Ideal) x0 x1 x2 x3 x4 i) := by
  rw [val_main_v11_apply, val_main_v10_apply, val_main_cst_0_apply]
  unfold val_main_v9
  rw [Host.reduce_eq_fold_single FloatOps.maximumf _ _ reducesTo_S16384x64_S16384_d1 (by decide) h_S_ i, val_main_cst_apply]
  show IsReal (max (Ideal.ofBits .f32 0xFF800000#32) (Finset.fold _ (Ideal.ofBits .f32 0xFF800000#32) _ _))
  rw [ofBits_negInf, max_bot_left]
  refine IsReal.fold_max _ _ ?_ fun k _ => logit_isReal x0 x1 x2 x3 x4 h0 h1 h2 h3 h4 _
  exact ⟨⟨0, by decide⟩, Finset.mem_univ _⟩

/-- THE REFERENCE'S RESULT is the array of gating weights. -/
theorem result_eq : val_main_v19 (F := Ideal) x0 x1 x2 x3 x4 = weights x0 x1 x2 x3 x4 := by
  funext i
  obtain ⟨p, q, rfl⟩ : ∃ (p : Fin 16384) (q : Fin 64), i = ix2 p q := ⟨i 0, i 1, eq_ix2 i⟩
  rw [weights_apply, val_main_v19_apply, shiftedExp_apply, rowSum_apply]
  exact Cert.SoftmaxShift.shifted_eq (n := 64) (by decide)
    (logitRow (fun r => x0 (ix2 p r)) x1 (fun k => x2 (ix1 k)) x3 (fun j => x4 (ix1 j)))
    (fun k => logitRow_isReal _ _ _ _ _ (fun _ => h0 _) h1 (fun _ => h2 _) h3 (fun _ => h4 _) k)
    (val_main_v11 (F := Ideal) x0 x1 x2 x3 x4 (ix1 p))
    (rowMax_isReal x0 x1 x2 x3 x4 h0 h1 h2 h3 h4 (ix1 p)) q

end

end Cert.ReferenceIdeal.RefValue

end
-- ==== Proof.Finite.lean ====
/-
  The precondition read back: every entry of every argument is a real number.

  The precondition is the conjunction, over the five arguments, of "all entries have absolute value below +∞".  A
  conjunction of truth values that is true has every conjunct true; an all-reduction by "and" that is true had a true
  at every entry; and an extended real whose absolute value max (x, -x) lies below +∞ is neither infinity.
-/
import proofs.«176451_g56796647523006_cont_9to1c4b_719_26_alg».proof.Pre_finite_inputs
import Idealize.ShloMosaic.Lib.ReduceAll
import Idealize.ShloMosaic.Lib.ValueIdx
import Idealize.ShloMosaic.PureOps.Ideal.Laws
import proofs.«176451_g56796647523006_cont_9to1c4b_719_26_alg».proof.Proof.LibRealValued

noncomputable section

namespace Cert.FiniteInputs

open Idealize.ShloMosaic Cert.RealValued Cert.Pre_finite_inputs

instance : Subsingleton S_.Idx := ⟨fun _ _ => funext fun d => d.elim0⟩

/-- The pattern of plus infinity denotes the top element. -/
theorem ofBits_posInf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- One argument's conjunct: if "every |entry| is below +∞" came out true, every entry is real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ValueIdx.ix0 = 1#1) (i : s.Idx) : IsReal (x i) := by
  have h := Host.reduce_andi_all _ _ hr hu ValueIdx.ix0 e i
  refine isReal_of_abs_lt_top (x i) ?_
  rw [← ofBits_posInf]
  exact h

variable [Facts]

/-- THE PRECONDITION, READ BACK: all five arguments hold real numbers only. -/
theorem real_of_pre (a0 : FVec Ideal S16384x2048 .f32) (a1 : FVec Ideal S2048x1024 .f32) (a2 : FVec Ideal S1024 .f32)
    (a3 : FVec Ideal S1024x64 .f32) (a4 : FVec Ideal S64 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨isReal_of_all a0 _ _ _ h0', isReal_of_all a1 _ _ _ h1, isReal_of_all a2 _ _ _ h2, isReal_of_all a3 _ _ _ h3,
    isReal_of_all a4 _ _ _ h4⟩

end Cert.FiniteInputs

end
-- ==== Proof.lean ====
/-
  A router's gating network, fused into one tile kernel, against its plain description.

  Both programs compute, for each of 16384 tokens x, the softmax over 64 experts of  W2ᵀ relu (W1ᵀ x + b1) + b2.
  The kernel does it block by block, 2048 tokens to a grid point, with the matrix products taken in a narrower float
  format (the identity on exact values) and the softmax written  e · (1 / Σ e)  with e = exp (logit), no maximum
  subtracted.  The reference subtracts each row's maximum M first:  exp (logit - M) / Σ exp (logit - M).

  On the extended reals the two agree because, the arguments being finite, every logit is a real number, so M is real
  and exp (-M) cancels between numerator and denominator (Proof/LibSoftmaxShift.lean); at an infinite logit they would
  differ, which is where the precondition is used (Proof/Finite.lean reads it back).  What the kernel's result array
  holds is read off its generated blockwise run (Proof/KernelPayload.lean: one stored entry; Proof/KernelValue.lean:
  from the eight blocks to the array), what the reference computes off its generated run, one operation at a time
  (Proof/ReferenceValue.lean); both are the function `Cert.Router.weights` of the arguments (Proof/Spec.lean).
  The frames of the two kernel programs are the generated ones; the reference's frame is its run with the result
  dropped; the idealization rewrote nothing, so there is nothing to preserve.
-/
import proofs.«176451_g56796647523006_cont_9to1c4b_719_26_alg».proof.Defs
import proofs.«176451_g56796647523006_cont_9to1c4b_719_26_alg».proof.Proof.Gen.Kernel
import proofs.«176451_g56796647523006_cont_9to1c4b_719_26_alg».proof.Proof.Gen.Kernel.Skeleton
import proofs.«176451_g56796647523006_cont_9to1c4b_719_26_alg».proof.Proof.Gen.Kernel.Launch
import proofs.«176451_g56796647523006_cont_9to1c4b_719_26_alg».proof.Proof.Gen.Kernel.Points
import proofs.«176451_g56796647523006_cont_9to1c4b_719_26_alg».proof.Proof.Gen.Kernel.Frame
import proofs.«176451_g56796647523006_cont_9to1c4b_719_26_alg».proof.Proof.Gen.KernelIdeal
import proofs.«176451_g56796647523006_cont_9to1c4b_719_26_alg».proof.Proof.Gen.KernelIdeal.Skeleton
import proofs.«176451_g56796647523006_cont_9to1c4b_719_26_alg».proof.Proof.Gen.KernelIdeal.Launch
import proofs.«176451_g56796647523006_cont_9to1c4b_719_26_alg».proof.Proof.Gen.KernelIdeal.Points
import proofs.«176451_g56796647523006_cont_9to1c4b_719_26_alg».proof.Proof.Gen.KernelIdeal.Frame
import proofs.«176451_g56796647523006_cont_9to1c4b_719_26_alg».proof.Proof.Gen.ReferenceIdeal
import proofs.«176451_g56796647523006_cont_9to1c4b_719_26_alg».proof.Proof.Gen.Pre_finite_inputs
import proofs.«176451_g56796647523006_cont_9to1c4b_719_26_alg».proof.Proof.Gen.KernelIdeal.Value
import proofs.«176451_g56796647523006_cont_9to1c4b_719_26_alg».proof.Proof.Gen.ReferenceIdeal.Run
import proofs.«176451_g56796647523006_cont_9to1c4b_719_26_alg».proof.Proof.Gen.ReferenceIdeal.Read
import proofs.«176451_g56796647523006_cont_9to1c4b_719_26_alg».proof.Proof.KernelValue
import proofs.«176451_g56796647523006_cont_9to1c4b_719_26_alg».proof.Proof.ReferenceValue
import proofs.«176451_g56796647523006_cont_9to1c4b_719_26_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments, the kernel's result array ends at the gating weights of the arguments
    (the blockwise run, assembled) and so does the reference's (its run, read back; the arguments are real numbers by
    the precondition, which makes the subtracted maximum cancel). -/
theorem algebraic : Cert.algebraic_KernelIdeal_ReferenceIdeal := by
  intro m ρ m' ρ' hpre hagree
  refine ⟨fun c => Cert.KernelIdeal.RouterValue.result m c, Cert.KernelIdeal.RouterValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.FiniteInputs.real_of_pre _ _ _ _ _ (hpre c)
  rw [Cert.ReferenceIdeal.Read.val_main_v19_eq, (hagree c).1, (hagree c).2.1, (hagree c).2.2.1, (hagree c).2.2.2.1,
    (hagree c).2.2.2.2]
  exact Cert.ReferenceIdeal.RefValue.result_eq _ _ _ _ _ r0 r1 r2 r3 r4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
